-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048x32000 : Shape := ⟨2, ![2048, 32000]⟩
abbrev S32000x2048 : Shape := ⟨2, ![32000, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x32000 : S_.BroadcastsInDim S2048x32000 (![] : Fin 0 → Fin S2048x32000.rank)
  reducesTo_S2048x32000_S_d0_1 : S2048x32000.ReducesTo [0, 1] S_
  bcast_S_S32000x2048 : S_.BroadcastsInDim S32000x2048 (![] : Fin 0 → Fin S32000x2048.rank)
  reducesTo_S32000x2048_S_d0_1 : S32000x2048.ReducesTo [0, 1] S_

variable [Facts]

def fn {F : FTy → Type} [FloatOps F] (main_arg0 : FVec F S2048x2048 .f32) (main_arg1 : FVec F S2048x32000 .f32) (main_arg2 : FVec F S32000x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x32000 .f32 := Host.absf main_arg1
  let main_cst_0 : FVec F S_ .f32 := constant S_ .f32 0x7F800000#32
  let main_v5 : FVec F S2048x32000 .f32 := broadcastInDim S2048x32000 ![] bcast_S_S2048x32000 main_cst_0
  let main_v6 : IVec S2048x32000 1 := cmpf .olt main_v4 main_v5
  let main_c_1 : IVec S_ 1 := constantI S_ 1 1#1
  let main_v7 : IVec S_ 1 := (fun x v => Host.reduce IntOp.andi x v reducesTo_S2048x32000_S_d0_1 h_S_) main_v6 main_c_1
  let main_v8 : IVec S_ 1 := andi main_v3 main_v7
  let main_v9 : FVec F S32000x2048 .f32 := Host.absf main_arg2
  let main_cst_2 : FVec F S_ .f32 := constant S_ .f32 0x7F800000#32
  let main_v10 : FVec F S32000x2048 .f32 := broadcastInDim S32000x2048 ![] bcast_S_S32000x2048 main_cst_2
  let main_v11 : IVec S32000x2048 1 := cmpf .olt main_v9 main_v10
  let main_c_3 : IVec S_ 1 := constantI S_ 1 1#1
  let main_v12 : IVec S_ 1 := (fun x v => Host.reduce IntOp.andi x v reducesTo_S32000x2048_S_d0_1 h_S_) main_v11 main_c_3
  let main_v13 : IVec S_ 1 := andi main_v8 main_v12
  main_v13
-- ==== Kernel.lean ====
abbrev S2048x2048 : Shape := ⟨2, ![2048, 2048]⟩
abbrev S2048x32000 : Shape := ⟨2, ![2048, 32000]⟩
abbrev S32000x2048 : Shape := ⟨2, ![32000, 2048]⟩
abbrev S1x1 : Shape := ⟨2, ![1, 1]⟩
abbrev S512x2048 : Shape := ⟨2, ![512, 2048]⟩
abbrev S640x2048 : Shape := ⟨2, ![640, 2048]⟩
abbrev S512x640 : Shape := ⟨2, ![512, 640]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 7
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x32000, .f32⟩
  | .hbm, ⟨2, _⟩ => ⟨S32000x2048, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S640x2048, .f32⟩
  | .local _ .vmem, ⟨3, _⟩ => ⟨S640x2048, .f32⟩
  | .local _ .vmem, ⟨4, _⟩ => ⟨S512x640, .f32⟩
  | .local _ .vmem, ⟨5, _⟩ => ⟨S512x640, .f32⟩
  | .local _ .vmem, ⟨6, _⟩ => ⟨S1x1, .f32⟩
  | .local _ .vmem, ⟨7, _⟩ => ⟨S1x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![4, 50], ![false, false]⟩

def k0_cond2 (i : grid0.Coords) : BitVec 1 :=
  let arg0 : BitVec 32 := BitVec.ofNat 32 (i 0).val
  let c3_i32 : BitVec 32 := 3#32
  let v22 : BitVec 1 := Scalar.cmpi .eq arg0 c3_i32
  let arg1 : BitVec 32 := BitVec.ofNat 32 (i 1).val
  let c49_i32 : BitVec 32 := 49#32
  let v23 : BitVec 1 := Scalar.cmpi .eq arg1 c49_i32
  let v24 : BitVec 1 := Scalar.andi v22 v23
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S640x2048_S640x2048_0_0 : ∀ a, (![0, 0] : Fin 2 → Nat) a + S640x2048.size a ≤ S640x2048.size a
  h_S640x2048 : 0 < S640x2048.numel
  inb_S512x640_S512x640_0_0 : ∀ a, (![0, 0] : Fin 2 → Nat) a + S512x640.size a ≤ S512x640.size a
  h_S512x640 : 0 < S512x640.numel
  reduces_S512x640_S512 : S512x640.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  dot_S512x2048_S640x2048_S512x640_1_1_0_0_n_n_wf : DotDims.WF S512x2048 S640x2048 S512x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x2048.size a ≤ S32000x2048.size a
  hwx0_1 : ∀ i : grid0.Coords, EltTy.bits .f32 = 32 ∨ (Rect.block (s := S32000x2048) S640x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x640.size a ≤ S2048x32000.size a
  hwx0_2 : ∀ i : grid0.Coords, EltTy.bits .f32 = 32 ∨ (Rect.block (s := S2048x32000) S512x640.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S512x2048_S640x2048_S512x640_1_1_0_0_n_n : DotDims S512x2048 S640x2048 S512x640 where
  lhsContracting := [1]
  rhsContracting := [1]
  lhsNonContracting := [0]
  rhsNonContracting := [0]
  lhsBatch := []
  rhsBatch := []
  wf := dot_S512x2048_S640x2048_S512x640_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S640x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x640.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x2048 : Shape := ⟨2, ![2048, 2048]⟩
abbrev S2048x32000 : Shape := ⟨2, ![2048, 32000]⟩
abbrev S32000x2048 : Shape := ⟨2, ![32000, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x32000, .f32⟩
  | .hbm, ⟨2, _⟩ => ⟨S32000x2048, .f32⟩
  | .hbm, ⟨3, _⟩ => ⟨S2048x32000, .f32⟩
  | .hbm, ⟨4, _⟩ => ⟨S2048x32000, .f32⟩
  | .hbm, ⟨5, _⟩ => ⟨S2048x32000, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  reducesTo_S2048x32000_S_d0_1 : S2048x32000.ReducesTo [0, 1] S_
  h_S_ : 0 < S_.numel
  dot_S2048x2048_S32000x2048_S2048x32000_1_1_0_0_n_n_wf : DotDims.WF S2048x2048 S32000x2048 S2048x32000 [1] [1] [0] [0] [] []

variable [Facts₀]

def dot_S2048x2048_S32000x2048_S2048x32000_1_1_0_0_n_n : DotDims S2048x2048 S32000x2048 S2048x32000 where
  lhsContracting := [1]
  rhsContracting := [1]
  lhsNonContracting := [0]
  rhsNonContracting := [0]
  lhsBatch := []
  rhsBatch := []
  wf := dot_S2048x2048_S32000x2048_S2048x32000_1_1_0_0_n_n_wf

class Facts : Prop extends Facts₀ where

variable [Facts]
-- ==== Proof.TiledSum.lean ====
/-
  A double sum over 2048 rows and 32000 columns, taken tile by tile: the index set is cut into
  4 × 50 tiles of 512 rows by 640 columns, tile `t` (counted row-major, `t = 50·i + j`) holding
  rows `512·i + p` and columns `640·j + q`. Every (row, column) pair lies in exactly one tile at
  exactly one place, so in any commutative monoid the sum over the tiles of the tiles' sums is the
  whole double sum. Also here: a running total over the first `n + 1` tiles, and its last value.
-/
import Mathlib.Algebra.BigOperators.Fin
import Mathlib.Algebra.BigOperators.Intervals
import Mathlib.Data.Fintype.BigOperators
import Mathlib.Tactic

namespace Cert.TiledSum

open scoped BigOperators

/-- Row `p` of tile `t`, as a row of the whole array. -/
def rowOf (t : Fin 200) (p : Fin 512) : Fin 2048 := ⟨512 * (t.val / 50) + p.val, by omega⟩

/-- Column `q` of tile `t`, as a column of the whole array. -/
def colOf (t : Fin 200) (q : Fin 640) : Fin 32000 := ⟨640 * (t.val % 50) + q.val, by omega⟩

@[simp] theorem rowOf_val (t : Fin 200) (p : Fin 512) : (rowOf t p).val = 512 * (t.val / 50) + p.val := rfl
@[simp] theorem colOf_val (t : Fin 200) (q : Fin 640) : (colOf t q).val = 640 * (t.val % 50) + q.val := rfl

/-- (tile, row in tile, column in tile) ↦ (row, column) is one-to-one … -/
theorem place_injective :
    Function.Injective fun x : Fin 200 × Fin 512 × Fin 640 => (rowOf x.1 x.2.1, colOf x.1 x.2.2) := by
  rintro ⟨t, p, q⟩ ⟨t', p', q'⟩ h
  simp only [Prod.mk.injEq, Fin.ext_iff, rowOf_val, colOf_val] at h
  obtain ⟨h1, h2⟩ := h
  have := t.isLt; have := t'.isLt; have := p.isLt; have := p'.isLt; have := q.isLt; have := q'.isLt
  refine Prod.ext (Fin.ext ?_) (Prod.ext (Fin.ext ?_) (Fin.ext ?_))
  · show t.val = t'.val; omega
  · show p.val = p'.val; omega
  · show q.val = q'.val; omega

/-- … and, the two sets having as many elements, onto. -/
theorem place_bijective :
    Function.Bijective fun x : Fin 200 × Fin 512 × Fin 640 => (rowOf x.1 x.2.1, colOf x.1 x.2.2) :=
  (Fintype.bijective_iff_injective_and_card _).mpr ⟨place_injective, by
    simp only [Fintype.card_prod, Fintype.card_fin]⟩

/-- The sum over the tiles of each tile's double sum is the double sum over all rows and columns. -/
theorem sum_tiles {M : Type*} [AddCommMonoid M] (f : Fin 2048 → Fin 32000 → M) :
    ∑ t : Fin 200, ∑ p : Fin 512, ∑ q : Fin 640, f (rowOf t p) (colOf t q) = ∑ n : Fin 2048, ∑ v : Fin 32000, f n v := by
  have h := Fintype.sum_bijective (fun x : Fin 200 × Fin 512 × Fin 640 => (rowOf x.1 x.2.1, colOf x.1 x.2.2))
    place_bijective (fun x => f (rowOf x.1 x.2.1) (colOf x.1 x.2.2)) (fun y : Fin 2048 × Fin 32000 => f y.1 y.2)
    (fun _ => rfl)
  simp only [Fintype.sum_prod_type] at h
  exact h

/-- A tile's term counted by a natural number: nothing beyond the last tile. -/
def upTo {M : Type*} [AddCommMonoid M] (g : Fin 200 → M) (s : ℕ) : M := if h : s < 200 then g ⟨s, h⟩ else 0

/-- The running total after tile `n`: the first `n + 1` tiles' terms. -/
def running {M : Type*} [AddCommMonoid M] (g : Fin 200 → M) (n : ℕ) : M := ∑ s ∈ Finset.range (n + 1), upTo g s

theorem running_zero {M : Type*} [AddCommMonoid M] (g : Fin 200 → M) : running g 0 = g ⟨0, by omega⟩ := by
  simp [running, upTo]

theorem running_succ {M : Type*} [AddCommMonoid M] (g : Fin 200 → M) (n : ℕ) (h : n + 1 < 200) :
    running g (n + 1) = running g n + g ⟨n + 1, h⟩ := by
  unfold running
  rw [Finset.sum_range_succ _ (n + 1)]
  simp [upTo, h]

/-- After the last tile the running total is the sum over all tiles. -/
theorem running_last {M : Type*} [AddCommMonoid M] (g : Fin 200 → M) : running g 199 = ∑ t : Fin 200, g t := by
  unfold running
  rw [Finset.sum_range (fun s => upTo g s)]
  exact Finset.sum_congr rfl fun t _ => by simp [upTo, t.isLt]

end Cert.TiledSum
-- ==== Proof.MeanSquare.lean ====
/-
  The quantity both programs compute, over the extended reals: for x : [2048, 2048], y : [2048, 32000] and
  w : [32000, 2048], the squared error at row n and column v is ((∑ k, x(n,k)·w(v,k)) − y(n,v))², and the
  result is the sum of the squared errors over every row and column (then divided by the number of entries,
  which both programs do with the same operation and the same constant). The sum taken tile by tile
  (4 × 50 tiles of 512 rows by 640 columns) is the same sum: addition of extended reals is commutative and
  associative, and every (row, column) pair lies in exactly one tile.
-/
import Idealize.ShloMosaic.Lib.ValueIdx
import proofs.«149071_j28681791602728_1_alg».proof.Proof.TiledSum

noncomputable section

namespace Cert.MeanSquare

open Idealize.ShloMosaic Idealize.ShloMosaic.ValueIdx Cert.TiledSum
open scoped BigOperators

variable (x : (⟨2, ![2048, 2048]⟩ : Shape).Idx → EReal) (y : (⟨2, ![2048, 32000]⟩ : Shape).Idx → EReal)
  (w : (⟨2, ![32000, 2048]⟩ : Shape).Idx → EReal)

/-- The squared error at row `n`, column `v`. -/
def sqErr (n : Fin 2048) (v : Fin 32000) : EReal :=
  ((∑ k : Fin 2048, x (ix2 n k) * w (ix2 v k)) - y (ix2 n v)) * ((∑ k : Fin 2048, x (ix2 n k) * w (ix2 v k)) - y (ix2 n v))

/-- The sum of the squared errors over every row and column. -/
def total : EReal := ∑ n : Fin 2048, ∑ v : Fin 32000, sqErr x y w n v

/-- The sum of the squared errors over tile `t`. -/
def tile (t : Fin 200) : EReal := ∑ p : Fin 512, ∑ q : Fin 640, sqErr x y w (rowOf t p) (colOf t q)

/-- The tiles' sums add up to the whole sum. -/
theorem sum_tile : ∑ t : Fin 200, tile x y w t = total x y w := sum_tiles (sqErr x y w)

/-- So does the running total after the last tile. -/
theorem running_last_total : running (tile x y w) 199 = total x y w := (running_last _).trans (sum_tile x y w)

end Cert.MeanSquare

end
-- ==== Proof.LibHiLoMatmul.lean ====
/-
  A matrix product `A · Bᵀ` of an `[m, k]` by an `[n, k]` operand (both contracted on their last axis) that is computed
  as THREE products into a zero accumulator, each operand split into a leading part and the remainder left after taking
  the leading part away,

      lead A · lead Bᵀ  +  lead A · rest Bᵀ  +  rest A · lead Bᵀ,

  read at an index over the extended reals. There the narrowing to the leading part is the identity, so the remainder
  of a FINITE entry is `a − a = 0`, the two mixed products vanish term by term (`a · 0 = 0`, `0 · b = 0`), and the
  three-product sum at `(p, q)` is the plain inner product `∑ c, A (p, c) · B (q, c)`. Proved here:

  • `sub_self_of_real`: a finite extended real minus itself is zero;
  • `matmul_nt_zero_apply`: one such product into the zero splat, read at `(p, q)`, is the sum over the contracted
    coordinate `c : Fin k` of `A (p, c) · B (q, c)`;
  • `three_matmul_apply`: the three-product sum above, for operands with finite entries, is that same inner product;
  • `sign_select_apply`: the vector term `select (|x| > 0) (select (x < 0) (−1) 1) x` read at an index is `Ideal.sign`
    of the element, at every extended real.
-/
import Idealize.ShloMosaic.Lib.ValueLayout
import Idealize.ShloMosaic.PureOps.Ideal.Laws

namespace Cert.HiLoMatmul

open Idealize.ShloMosaic Idealize.ShloMosaic.ValueIdx

/-- A finite extended real minus itself is zero (which fails at the two infinities). -/
theorem sub_self_of_real {x : EReal} (h : ∃ r : ℝ, x = (r : EReal)) : x - x = 0 := by
  obtain ⟨r, rfl⟩ := h
  rw [← EReal.coe_sub, sub_self, EReal.coe_zero]

/-- The dimension numbers of `A · Bᵀ`: both operands contracted on axis 1, rows of each kept. -/
abbrev ntDims {m k n : ℕ} (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- One product `A · Bᵀ` into the zero splat, read at `(p, q)`: the sum over the contracted coordinate of the
    products of the entries. -/
theorem matmul_nt_zero_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (p : Fin m) (q : Fin n) :
    FloatOps.matmul (ntDims w) prec A B (constant (F := Ideal) ⟨2, ![m, n]⟩ .f32 0x00000000#32) (ix2 p q)
      = ∑ c : Fin k, A (ix2 p c) * B (ix2 q c) := by
  rw [Ideal.matmul_constant_zero_apply, ← Equiv.sum_comp (contrEquiv1 (ntDims w) k rfl rfl).symm]
  refine Finset.sum_congr rfl fun c _ => ?_
  have hc := contrEquiv1_symm_val (ntDims w) k rfl rfl c
  have hl : (ntDims w).lhsIdx (ix2 p q) ((contrEquiv1 (ntDims w) k rfl rfl).symm c) = ix2 p c := by
    funext ax; apply Fin.ext
    match ax with
    | ⟨0, _⟩ => simp [DotDims.lhsIdx]; rfl
    | ⟨1, _⟩ => simp [DotDims.lhsIdx]; exact hc
  have hr : (ntDims w).rhsIdx (ix2 p q) ((contrEquiv1 (ntDims w) k rfl rfl).symm c) = ix2 q c := by
    funext ax; apply Fin.ext
    match ax with
    | ⟨0, _⟩ => simp [DotDims.rhsIdx]; rfl
    | ⟨1, _⟩ => simp [DotDims.rhsIdx]; exact hc
  rw [hl, hr]

/-- The three-product sum: with the narrowing the identity and every entry finite, the two products against a
    remainder are sums of zeros, and what is left is the inner product. -/
theorem three_matmul_apply {m k n : ℕ} {φ : FTy}
    (w : DotDims.WF ⟨2, ![m, k]⟩ ⟨2, ![n, k]⟩ ⟨2, ![m, n]⟩ [1] [1] [0] [0] [] [])
    (prec : Option ContractPrecision) (hlt : φ.bits < FTy.bits .f32)
    (A : FVec Ideal ⟨2, ![m, k]⟩ .f32) (B : FVec Ideal ⟨2, ![n, k]⟩ .f32)
    (hA : ∀ j, ∃ r : ℝ, A j = (r : EReal)) (hB : ∀ j, ∃ r : ℝ, B j = (r : EReal)) (p : Fin m) (q : Fin n) :
    addf (addf
        (matmul (ntDims w) prec (truncf φ A hlt) (truncf φ B hlt) (constant ⟨2, ![m, n]⟩ .f32 0x00000000#32))
        (matmul (ntDims w) prec (truncf φ A hlt) (truncf φ (subf B B) hlt) (constant ⟨2, ![m, n]⟩ .f32 0x00000000#32)))
        (matmul (ntDims w) prec (truncf φ (subf A A) hlt) (truncf φ B hlt) (constant ⟨2, ![m, n]⟩ .f32 0x00000000#32))
        (ix2 p q)
      = ∑ c : Fin k, A (ix2 p c) * B (ix2 q c) := by
  rw [addf_apply, addf_apply]
  simp only [matmul]
  rw [matmul_nt_zero_apply, matmul_nt_zero_apply, matmul_nt_zero_apply]
  have h2 : ∑ c : Fin k, (truncf φ A hlt : FVec Ideal _ φ) (ix2 p c) * (truncf φ (subf B B) hlt : FVec Ideal _ φ) (ix2 q c) = 0 :=
    Finset.sum_eq_zero fun c _ => by
      rw [truncf_apply, truncf_apply, subf_apply, sub_self_of_real (hB _), mul_zero]
  have h3 : ∑ c : Fin k, (truncf φ (subf A A) hlt : FVec Ideal _ φ) (ix2 p c) * (truncf φ B hlt : FVec Ideal _ φ) (ix2 q c) = 0 :=
    Finset.sum_eq_zero fun c _ => by
      rw [truncf_apply, truncf_apply, subf_apply, sub_self_of_real (hA _), zero_mul]
  rw [h2, h3, add_zero, add_zero]
  exact Finset.sum_congr rfl fun c _ => by rw [truncf_apply, truncf_apply]

/-- The term printed for a sign, `select (|x| > 0) (select (x < 0) (−1) 1) x` over a whole `f32` vector, read at an
    index: `Ideal.sign` of the element, the two infinities and zero included. -/
theorem sign_select_apply {s : Shape} (x : FVec Ideal s .f32) (i : s.Idx) :
    select (cmpf .ogt (absf x) (broadcast s (Scalar.ofBits .f32 0x00000000#32)))
        (select (cmpf .olt x (constant s .f32 0x00000000#32)) (constant s .f32 0xBF800000#32)
          (constant s .f32 0x3F800000#32)) x i
      = Ideal.sign (x i) :=
  Ideal.jnp_sign_eq_sign_f32 (x i)

end Cert.HiLoMatmul
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.TileValue.lean ====
/-
  What one grid point adds to the kernel's accumulator, read as a number. The body takes a [512, 2048] block
  x0 of x, a [640, 2048] block x1 of w and a [512, 640] block x2 of y, forms the products x0·x1ᵀ (the rounding
  to bf16 on the way in is the identity over the extended reals), subtracts x2, squares, sums each row over
  its 640 columns, sums the 512 row sums, and adds the result to the accumulator's one entry:

      new = old + ∑ p, ∑ q, ((∑ k, x0(p,k)·x1(q,k)) − x2(p,q))².

  When the three blocks are the rows and columns of tile t of the whole arrays, the double sum is the tile's
  sum of squared errors.
-/
import proofs.«149071_j28681791602728_1_alg».proof.Proof.Gen.KernelIdeal.Skeleton
import proofs.«149071_j28681791602728_1_alg».proof.Proof.MeanSquare
import proofs.«149071_j28681791602728_1_alg».proof.Proof.LibHiLoMatmul
import proofs.«149071_j28681791602728_1_alg».proof.Proof.LibColumnLayout
import Idealize.ShloMosaic.Lib.Pipeline.Value
import Idealize.ShloMosaic.Lib.ValueLayout
import Idealize.ShloMosaic.PureOps.Ideal.Laws

noncomputable section

namespace Cert.KernelIdeal.TileValue

open Cert.KernelIdeal Cert.KernelIdeal.Gen Idealize.ShloMosaic Idealize.ShloMosaic.ValueIdx
open Cert.TiledSum Cert.MeanSquare
open scoped BigOperators

variable (x0 : Vec Ideal S512x2048 .f32) (x1 : Vec Ideal S640x2048 .f32) (x2 : Vec Ideal S512x640 .f32)

/-- The squared error at row `p`, column `q` of the blocks. -/
def blockSq (p : Fin 512) (q : Fin 640) : EReal :=
  ((∑ k : Fin 2048, x0 (ix2 p k) * x1 (ix2 q k)) - x2 (ix2 p q)) * ((∑ k : Fin 2048, x0 (ix2 p k) * x1 (ix2 q k)) - x2 (ix2 p q))

/-- The body's array of squared differences, (x0·x1ᵀ − x2)². -/
def sqArr : FVec Ideal S512x640 .f32 :=
  mulf
    (subf (matmul dot_S512x2048_S640x2048_S512x640_1_1_0_0_n_n none (truncf .bf16 x0 bitsLt_bf16_f32) (truncf .bf16 x1 bitsLt_bf16_f32)
      (constant S512x640 .f32 0x00000000#32)) x2)
    (subf (matmul dot_S512x2048_S640x2048_S512x640_1_1_0_0_n_n none (truncf .bf16 x0 bitsLt_bf16_f32) (truncf .bf16 x1 bitsLt_bf16_f32)
      (constant S512x640 .f32 0x00000000#32)) x2)

/-- At (p, q) it is the blocks' squared error: the product into a zero accumulator is the inner product of row p
    of x0 with row q of x1. -/
theorem sqArr_apply (p : Fin 512) (q : Fin 640) : sqArr x0 x1 x2 (ix2 p q) = blockSq x0 x1 x2 p q := by
  have hm : FloatOps.matmul (F := Ideal) dot_S512x2048_S640x2048_S512x640_1_1_0_0_n_n none
      (truncf .bf16 x0 bitsLt_bf16_f32 : FVec Ideal S512x2048 .bf16) (truncf .bf16 x1 bitsLt_bf16_f32 : FVec Ideal S640x2048 .bf16)
      (constant (F := Ideal) S512x640 .f32 0x00000000#32) (ix2 p q) = ∑ k : Fin 2048, x0 (ix2 p k) * x1 (ix2 q k) :=
    Cert.HiLoMatmul.matmul_nt_zero_apply dot_S512x2048_S640x2048_S512x640_1_1_0_0_n_n_wf none
      (truncf .bf16 x0 bitsLt_bf16_f32 : FVec Ideal S512x2048 .bf16) (truncf .bf16 x1 bitsLt_bf16_f32 : FVec Ideal S640x2048 .bf16) p q
  exact congrArg (fun z : EReal => (z - x2 (ix2 p q)) * (z - x2 (ix2 p q))) hm

/-- A sum along the columns of a [512, 640] array, at row p. -/
theorem rowSum_apply (src : FVec Ideal S512x640 .f32) (p : Fin 512) :
    multiReduction .add [1] S512 src 0x00000000#32 reduces_S512x640_S512 (.inl rfl) rfl (ix1 p) = ∑ q : Fin 640, src (ix2 p q) := by
  refine (Ideal.multiReduction_add_single src 0x00000000#32 reduces_S512x640_S512 (.inl rfl) rfl (ix1 p)).trans ?_
  refine Finset.sum_congr rfl fun q _ => congrArg src ?_
  funext a; apply Fin.ext
  match a with
  | ⟨0, _⟩ => rfl
  | ⟨1, _⟩ => rfl

/-- A sum down the one column of a [512, 1] array. -/
theorem colSum_apply (src : FVec Ideal S512x1 .f32) (v : Fin 1) :
    multiReduction .add [0] S1 src 0x00000000#32 reduces_S512x1_S1 (.inl rfl) rfl (ix1 v) = ∑ p : Fin 512, src (ix2 p v) := by
  refine (Ideal.multiReduction_add_single src 0x00000000#32 reduces_S512x1_S1 (.inl rfl) rfl (ix1 v)).trans ?_
  refine Finset.sum_congr rfl fun p _ => congrArg src ?_
  funext a; apply Fin.ext
  match a with
  | ⟨0, _⟩ => rfl
  | ⟨1, _⟩ => rfl

/-- The value the body stores into the accumulator, spelt over the array of squared differences. -/
theorem pay_eq (xs : Vec Ideal S1x1 .f32) : k0_pay2 (F := Ideal) x0 x1 x2 xs
    = shapeCast S1x1 (addf xs (shapeCast S1x1 (multiReduction .add [0] S1
        (shapeCast S512x1 (multiReduction .add [1] S512 (sqArr x0 x1 x2) 0x00000000#32 reduces_S512x640_S512 (.inl rfl) rfl)
          shapeCasts_S512_S512x1) 0x00000000#32 reduces_S512x1_S1 (.inl rfl) rfl) shapeCasts_S1_S1x1)) shapeCasts_S1x1_S1x1 := rfl

/-- Read at its one entry: the old entry plus the sum of the blocks' squared errors. -/
theorem pay_apply (xs : Vec Ideal S1x1 .f32) (j : S1x1.Idx) :
    k0_pay2 (F := Ideal) x0 x1 x2 xs j = xs j + ∑ p : Fin 512, ∑ q : Fin 640, blockSq x0 x1 x2 p q := by
  obtain ⟨u, v, rfl⟩ : ∃ (u v : Fin 1), j = ix2 u v := ⟨j 0, j 1, eq_ix2 j⟩
  rw [pay_eq, shapeCast_self, addf_apply]
  refine congrArg (xs (ix2 u v) + ·) ?_
  refine (shapeCast_a_1a_apply _ _ u v).trans ?_
  refine (colSum_apply _ v).trans ?_
  refine Finset.sum_congr rfl fun p _ => ?_
  refine (Cert.ColumnLayout.shapeCast_a_a1_apply _ _ p v).trans ?_
  refine (rowSum_apply _ p).trans ?_
  exact Finset.sum_congr rfl fun q _ => sqArr_apply x0 x1 x2 p q

/-- The accumulator's first contents, the zero the first point stores, at its one entry. -/
theorem pay1_apply (j : S1x1.Idx) : k0_pay1 (F := Ideal) j = 0 := by
  unfold k0_pay1
  rw [shapeCast_self]
  exact Ideal.ofBits_zero_f32

variable (X : (⟨2, ![2048, 2048]⟩ : Shape).Idx → EReal) (Y : (⟨2, ![2048, 32000]⟩ : Shape).Idx → EReal)
  (W : (⟨2, ![32000, 2048]⟩ : Shape).Idx → EReal) (t : Fin 200)

/-- With the blocks the rows and columns of tile `t`, the body adds the tile's sum of squared errors. -/
theorem pay_tile (hx0 : ∀ (p : Fin 512) (k : Fin 2048), x0 (ix2 p k) = X (ix2 (rowOf t p) k))
    (hx1 : ∀ (q : Fin 640) (k : Fin 2048), x1 (ix2 q k) = W (ix2 (colOf t q) k))
    (hx2 : ∀ (p : Fin 512) (q : Fin 640), x2 (ix2 p q) = Y (ix2 (rowOf t p) (colOf t q)))
    (xs : Vec Ideal S1x1 .f32) (j : S1x1.Idx) :
    k0_pay2 (F := Ideal) x0 x1 x2 xs j = xs j + tile X Y W t := by
  rw [pay_apply]
  refine congrArg (xs j + ·) ?_
  unfold tile
  refine Finset.sum_congr rfl fun p _ => Finset.sum_congr rfl fun q _ => ?_
  unfold blockSq sqErr
  simp only [hx0, hx1, hx2]

end Cert.KernelIdeal.TileValue

end
-- ==== Proof.BlockReads.lean ====
/-
  The three input blocks at a grid point, read at an entry. Counting the 4 × 50 grid points row-major,
  point t sits at grid coordinates (t / 50, t % 50); there the window over x holds its rows 512·(t / 50) + p,
  the window over w its rows 640·(t % 50) + q, and the window over y the rows and columns of both — the rows
  and columns of tile t.
-/
import proofs.«149071_j28681791602728_1_alg».proof.Proof.Gen.KernelIdeal.Frame
import proofs.«149071_j28681791602728_1_alg».proof.Proof.TiledSum
import Idealize.ShloMosaic.Lib.ValueIdx
import Idealize.ShloMosaic.Lib.Pipeline.Value

noncomputable section

namespace Cert.KernelIdeal.BlockReads

open Cert.KernelIdeal Cert.KernelIdeal.Gen Idealize.ShloMosaic Idealize.ShloMosaic.TcCoe Idealize.SL.Sem
open Idealize.ShloMosaic.ValueIdx Cert.TiledSum

variable {F : FTy → Type} [FloatOps F]
variable (m : (ℓ : Loc nD τ sig) → Buf (Elt F) ℓ)

/-- A grid point as a tile number. -/
abbrev pt (t : Fin cfg0.N) : Fin 200 := t.cast N_0

/-- The windows' block indices at point t: (t / 50, 0) over x, (t % 50, 0) over w, (t / 50, t % 50) over y. -/
theorem block_index : ∀ t : Fin cfg0.N,
    win0_0.index t (0 : Fin 2) = t.val / 50 ∧ win0_0.index t (1 : Fin 2) = 0
    ∧ win0_1.index t (0 : Fin 2) = t.val % 50 ∧ win0_1.index t (1 : Fin 2) = 0
    ∧ win0_2.index t (0 : Fin 2) = t.val / 50 ∧ win0_2.index t (1 : Fin 2) = t.val % 50 :=
  (by decide +kernel : ∀ t : Fin grid0.N,
    win0_0.index t (0 : Fin 2) = t.val / 50 ∧ win0_0.index t (1 : Fin 2) = 0
    ∧ win0_1.index t (0 : Fin 2) = t.val % 50 ∧ win0_1.index t (1 : Fin 2) = 0
    ∧ win0_2.index t (0 : Fin 2) = t.val / 50 ∧ win0_2.index t (1 : Fin 2) = t.val % 50)

/-- The block of x at point t, at (p, k): row p of tile t, column k. -/
theorem iblk0_apply (c : Dev nD) (t : Fin cfg0.N) (p : Fin 512) (k : Fin 2048) :
    (iblk m c 0 t : Vec F S512x2048 .f32) (ix2 p k) = V m c main_arg0 (ix2 (rowOf (pt t) p) k) := by
  unfold iblk
  rw [View.read_apply]
  show V m c main_arg0 _ = V m c main_arg0 _
  refine congrArg (V m c main_arg0) ?_
  funext a; apply Fin.ext
  match a with
  | ⟨0, _⟩ => show win0_0.index t (0 : Fin 2) * 512 + 1 * p.val = 512 * (t.val / 50) + p.val; rw [(block_index t).1]; omega
  | ⟨1, _⟩ => show win0_0.index t (1 : Fin 2) * 2048 + 1 * k.val = k.val; rw [(block_index t).2.1]; omega

/-- The block of w at point t, at (q, k): column q of tile t as a row of w, column k. -/
theorem iblk1_apply (c : Dev nD) (t : Fin cfg0.N) (q : Fin 640) (k : Fin 2048) :
    (iblk m c 1 t : Vec F S640x2048 .f32) (ix2 q k) = V m c main_arg2 (ix2 (colOf (pt t) q) k) := by
  unfold iblk
  rw [View.read_apply]
  show V m c main_arg2 _ = V m c main_arg2 _
  refine congrArg (V m c main_arg2) ?_
  funext a; apply Fin.ext
  match a with
  | ⟨0, _⟩ => show win0_1.index t (0 : Fin 2) * 640 + 1 * q.val = 640 * (t.val % 50) + q.val; rw [(block_index t).2.2.1]; omega
  | ⟨1, _⟩ => show win0_1.index t (1 : Fin 2) * 2048 + 1 * k.val = k.val; rw [(block_index t).2.2.2.1]; omega

/-- The block of y at point t, at (p, q): row p and column q of tile t. -/
theorem iblk2_apply (c : Dev nD) (t : Fin cfg0.N) (p : Fin 512) (q : Fin 640) :
    (iblk m c 2 t : Vec F S512x640 .f32) (ix2 p q) = V m c main_arg1 (ix2 (rowOf (pt t) p) (colOf (pt t) q)) := by
  unfold iblk
  rw [View.read_apply]
  show V m c main_arg1 _ = V m c main_arg1 _
  refine congrArg (V m c main_arg1) ?_
  funext a; apply Fin.ext
  match a with
  | ⟨0, _⟩ => show win0_2.index t (0 : Fin 2) * 512 + 1 * p.val = 512 * (t.val / 50) + p.val; rw [(block_index t).2.2.2.2.1]; omega
  | ⟨1, _⟩ => show win0_2.index t (1 : Fin 2) * 640 + 1 * q.val = 640 * (t.val % 50) + q.val; rw [(block_index t).2.2.2.2.2]; omega

end Cert.KernelIdeal.BlockReads

end
-- ==== Proof.Accumulate.lean ====
/-
  The accumulator, point by point. The kernel keeps one number in a scratch buffer that lives across the whole
  grid. At the first point it stores zero there and then adds the first tile's sum of squared errors; at every
  later point it adds that point's tile's sum to what the point before left; at the last point it also copies the
  number into the output block. So after point n the scratch holds the running total of tiles 0 … n, and the
  output block ends holding the total over all 200 tiles, which is the sum over every row and column.
-/
import proofs.«149071_j28681791602728_1_alg».proof.Proof.Gen.KernelIdeal.Frame
import proofs.«149071_j28681791602728_1_alg».proof.Proof.TileValue
import proofs.«149071_j28681791602728_1_alg».proof.Proof.BlockReads
import Idealize.ShloMosaic.Lib.Pipeline.Value
import Idealize.ShloMosaic.Lib.Tactic

noncomputable section

namespace Cert.KernelIdeal.Accumulate

open Cert.KernelIdeal Cert.KernelIdeal.Gen Idealize.ShloMosaic Idealize.ShloMosaic.TcCoe Idealize.SL.Sem
open Idealize.ShloMosaic.Tactic Idealize.ShloMosaic.ValueIdx
open Cert.TiledSum Cert.MeanSquare Cert.KernelIdeal.TileValue Cert.KernelIdeal.BlockReads

/-! ## What each case of the body leaves, as the body's stored value -/

section Pieces

variable {F : FTy → Type} [FloatOps F]

theorem hz : (![0, 0] : Fin 2 → Nat) = fun _ => 0 := funext fun a => by fin_cases a <;> rfl

/-- The first point: the scratch is set to the stored zero and the body's sum is added to that. -/
theorem scratch_first (c : Dev nD) (i : grid0.Coords) (a2 : Memref sig .tc .vmem S512x2048 .f32) (h2 : a2.IsWhole)
    (a3 : Memref sig .tc .vmem S640x2048 .f32) (h3 : a3.IsWhole) (a4 : Memref sig .tc .vmem S512x640 .f32) (h4 : a4.IsWhole)
    (a5 : Memref sig .tc .vmem S1x1 .f32) (h5 : a5.IsWhole) (a6 : Memref sig .tc .vmem S1x1 .f32) (h6 : a6.IsWhole)
    (hc0 : cond0_0 i) (hc1 : ¬cond0_1 i) (x0 : Vec F S512x2048 .f32) (x1 : Vec F S640x2048 .f32) (x2 : Vec F S512x640 .f32) :
    sout0_A_0 c i a2 h2 a3 h3 a4 h4 a5 h5 a6 h6 hc0 hc1 x0 x1 x2 = k0_pay2 x0 x1 x2 k0_pay1 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h6.read_unread, View.ld_unit_zero (S := S512x2048) hz,
    View.ld_unit_zero (S := S640x2048) hz, View.ld_unit_zero (S := S512x640) hz, View.ld_unit_zero (S := S1x1) hz]

/-- A point between the first and the last: the body's sum is added to what the scratch held. -/
theorem scratch_next (c : Dev nD) (i : grid0.Coords) (a2 : Memref sig .tc .vmem S512x2048 .f32) (h2 : a2.IsWhole)
    (a3 : Memref sig .tc .vmem S640x2048 .f32) (h3 : a3.IsWhole) (a4 : Memref sig .tc .vmem S512x640 .f32) (h4 : a4.IsWhole)
    (a5 : Memref sig .tc .vmem S1x1 .f32) (h5 : a5.IsWhole) (a6 : Memref sig .tc .vmem S1x1 .f32) (h6 : a6.IsWhole)
    (hc0 : ¬cond0_0 i) (hc1 : ¬cond0_1 i) (x0 : Vec F S512x2048 .f32) (x1 : Vec F S640x2048 .f32) (x2 : Vec F S512x640 .f32) (xs0 : Vec F S1x1 .f32) :
    sout0_B_0 c i a2 h2 a3 h3 a4 h4 a5 h5 a6 h6 hc0 hc1 x0 x1 x2 xs0 = k0_pay2 x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz]
  simp only [View.readAt_eq_ld, h2.read_unread, h3.read_unread, h4.read_unread, h6.read_unread, View.ld_unit_zero (S := S512x2048) hz,
    View.ld_unit_zero (S := S640x2048) hz, View.ld_unit_zero (S := S512x640) hz, View.ld_unit_zero (S := S1x1) hz]

/-- The last point: the same for the scratch … -/
theorem scratch_last (c : Dev nD) (i : grid0.Coords) (a2 : Memref sig .tc .vmem S512x2048 .f32) (h2 : a2.IsWhole)
    (a3 : Memref sig .tc .vmem S640x2048 .f32) (h3 : a3.IsWhole) (a4 : Memref sig .tc .vmem S512x640 .f32) (h4 : a4.IsWhole)
    (a5 : Memref sig .tc .vmem S1x1 .f32) (h5 : a5.IsWhole) (a6 : Memref sig .tc .vmem S1x1 .f32) (h6 : a6.IsWhole)
    (hc0 : ¬cond0_0 i) (hc1 : cond0_1 i) (x0 : Vec F S512x2048 .f32) (x1 : Vec F S640x2048 .f32) (x2 : Vec F S512x640 .f32) (xs0 : Vec F S1x1 .f32) :
    sout0_C_0 c i a2 h2 a3 h3 a4 h4 a5 h5 a6 h6 hc0 hc1 x0 x1 x2 xs0 = k0_pay2 x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread, View.ld_unit_zero (S := S512x2048) hz,
    View.ld_unit_zero (S := S640x2048) hz, View.ld_unit_zero (S := S512x640) hz, View.ld_unit_zero (S := S1x1) hz]

/-- … and the output block receives the scratch's new contents, read back. -/
theorem out_last (c : Dev nD) (i : grid0.Coords) (a2 : Memref sig .tc .vmem S512x2048 .f32) (h2 : a2.IsWhole)
    (a3 : Memref sig .tc .vmem S640x2048 .f32) (h3 : a3.IsWhole) (a4 : Memref sig .tc .vmem S512x640 .f32) (h4 : a4.IsWhole)
    (a5 : Memref sig .tc .vmem S1x1 .f32) (h5 : a5.IsWhole) (a6 : Memref sig .tc .vmem S1x1 .f32) (h6 : a6.IsWhole)
    (hc0 : ¬cond0_0 i) (hc1 : cond0_1 i) (x0 : Vec F S512x2048 .f32) (x1 : Vec F S640x2048 .f32) (x2 : Vec F S512x640 .f32) (xs0 : Vec F S1x1 .f32) :
    out0_C_3 c i a2 h2 a3 h3 a4 h4 a5 h5 a6 h6 hc0 hc1 x0 x1 x2 xs0 = k0_pay2 x0 x1 x2 xs0 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz, View.readCov_unit_zero (S := S1x1) _ hz]
  simp only [View.readAt_eq_ld, h2.read_unread, h3.read_unread, h4.read_unread, h6.read_unread, View.ld_unit_zero (S := S512x2048) hz,
    View.ld_unit_zero (S := S640x2048) hz, View.ld_unit_zero (S := S512x640) hz, View.ld_unit_zero (S := S1x1) hz]

end Pieces

/-! ## The running total -/

variable (m : (ℓ : Loc nD τ sig) → Buf (Elt Ideal) ℓ)

/-- Tile `t`'s sum of squared errors of core `c`'s argument arrays (x, y, w in the program's argument order). -/
def tileOf (c : Dev nD) (t : Fin 200) : EReal :=
  tile (m ((c : Thread nD τ).loc main_arg0)) (m ((c : Thread nD τ).loc main_arg1)) (m ((c : Thread nD τ).loc main_arg2)) t

/-- The sum of the squared errors of core `c`'s argument arrays over every row and column. -/
def totalOf (c : Dev nD) : EReal :=
  total (m ((c : Thread nD τ).loc main_arg0)) (m ((c : Thread nD τ).loc main_arg1)) (m ((c : Thread nD τ).loc main_arg2))

/-- One step of the accumulator at grid point `t`, on the point's three blocks: the old entry plus tile `t`'s sum. -/
theorem step (c : Dev nD) (t : Fin cfg0.N) (xs : Vec Ideal S1x1 .f32) (j : S1x1.Idx) :
    k0_pay2 (F := Ideal) (iblk m c 0 t) (iblk m c 1 t) (iblk m c 2 t) xs j = xs j + tileOf m c (pt t) :=
  pay_tile (iblk m c 0 t) (iblk m c 1 t) (iblk m c 2 t)
    (m ((c : Thread nD τ).loc main_arg0)) (m ((c : Thread nD τ).loc main_arg1)) (m ((c : Thread nD τ).loc main_arg2)) (pt t)
    (fun p k => iblk0_apply m c t p k) (fun q k => iblk1_apply m c t q k) (fun p q => iblk2_apply m c t p q) xs j

/-- What the point before `t` left in the scratch. -/
abbrev before (c : Dev nD) (t : Fin cfg0.N) : Vec Ideal S1x1 .f32 :=
  (outsAt0 m c (t.val - 1) (Nat.lt_of_le_of_lt (Nat.sub_le _ _) t.isLt)).2

/-- The scratch after the first point: zero plus the first tile's sum. -/
theorem scratch_at_first (c : Dev nD) (t : Fin cfg0.N) (h0 : t.val % 200 = 0) (h1 : ¬t.val % 200 = 199) (j : S1x1.Idx) :
    (outsAt0 m c t.val t.isLt).2 j = 0 + tileOf m c (pt t) := by
  rw [outsAt0_A m c t h0 h1]
  refine (congrFun (scratch_first c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => h1 ((hcond0_1 t).mp h)) (iblk m c 0 t) (iblk m c 1 t) (iblk m c 2 t)) j).trans ?_
  refine (step m c t (k0_pay1 (F := Ideal)) j).trans ?_
  rw [pay1_apply]

/-- The scratch after a point between the first and the last: what the point before left plus the tile's sum. -/
theorem scratch_at_next (c : Dev nD) (t : Fin cfg0.N) (h0 : ¬t.val % 200 = 0) (h1 : ¬t.val % 200 = 199) (j : S1x1.Idx) :
    (outsAt0 m c t.val t.isLt).2 j = before m c t j + tileOf m c (pt t) := by
  rw [outsAt0_B m c t h0 h1]
  refine (congrFun (scratch_next c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) (fun h => h1 ((hcond0_1 t).mp h)) (iblk m c 0 t) (iblk m c 1 t) (iblk m c 2 t) (before m c t)) j).trans ?_
  exact step m c t (before m c t) j

/-- The scratch after the last point: likewise. -/
theorem scratch_at_last (c : Dev nD) (t : Fin cfg0.N) (h0 : ¬t.val % 200 = 0) (h1 : t.val % 200 = 199) (j : S1x1.Idx) :
    (outsAt0 m c t.val t.isLt).2 j = before m c t j + tileOf m c (pt t) := by
  rw [outsAt0_C m c t h0 h1]
  refine (congrFun (scratch_last c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (iblk m c 0 t) (iblk m c 1 t) (iblk m c 2 t) (before m c t)) j).trans ?_
  exact step m c t (before m c t) j

/-- The output block after the last point: the same number. -/
theorem out_at_last (c : Dev nD) (t : Fin cfg0.N) (h0 : ¬t.val % 200 = 0) (h1 : t.val % 200 = 199) (j : S1x1.Idx) :
    (outsAt0 m c t.val t.isLt).1 j = before m c t j + tileOf m c (pt t) := by
  rw [outsAt0_C m c t h0 h1]
  refine (congrFun (out_last c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (iblk m c 0 t) (iblk m c 1 t) (iblk m c 2 t) (before m c t)) j).trans ?_
  exact step m c t (before m c t) j

/-- After point `n` the scratch holds the running total of tiles 0 … n — by induction on the point. -/
theorem scratch_eq (c : Dev nD) : ∀ (n : ℕ) (h : n < cfg0.N) (j : S1x1.Idx), (outsAt0 m c n h).2 j = running (tileOf m c) n
  | 0, h, j => by
    refine (scratch_at_first m c ⟨0, h⟩ rfl (by dsimp only; omega) j).trans ?_
    rw [zero_add, running_zero]
    rfl
  | n + 1, h, j => by
    have hN : cfg0.N = 200 := N_0
    have hlt : n + 1 < 200 := hN ▸ h
    have h0 : ¬(⟨n + 1, h⟩ : Fin cfg0.N).val % 200 = 0 := by dsimp only; omega
    have ih : before m c ⟨n + 1, h⟩ j = running (tileOf m c) n := scratch_eq c n (Nat.lt_of_succ_lt h) j
    rw [running_succ _ n hlt]
    by_cases h1 : (⟨n + 1, h⟩ : Fin cfg0.N).val % 200 = 199
    · exact (scratch_at_last m c ⟨n + 1, h⟩ h0 h1 j).trans (congrArg (· + tileOf m c (pt ⟨n + 1, h⟩)) ih)
    · exact (scratch_at_next m c ⟨n + 1, h⟩ h0 h1 j).trans (congrArg (· + tileOf m c (pt ⟨n + 1, h⟩)) ih)

/-- At the last point the output block receives the total over all tiles: the sum over every row and column. -/
theorem out_eq (c : Dev nD) (t : Fin cfg0.N) (h1 : t.val % 200 = 199) : (outsAt0 m c t.val t.isLt).1 = fun _ => totalOf m c := by
  have hN : cfg0.N = 200 := N_0
  have hv : t.val = 199 := by have := t.isLt; omega
  have h0 : ¬t.val % 200 = 0 := by omega
  funext j
  refine (out_at_last m c t h0 h1 j).trans ?_
  have hb : before m c t j = running (tileOf m c) 198 :=
    (scratch_eq m c (t.val - 1) (Nat.lt_of_le_of_lt (Nat.sub_le _ _) t.isLt) j).trans
      (congrArg (running (tileOf m c)) (by omega))
  have hp : pt t = ⟨198 + 1, by omega⟩ := Fin.ext (by show t.val = 198 + 1; omega)
  rw [hb, hp, ← running_succ (tileOf m c) 198 (by omega)]
  exact running_last_total _ _ _

end Cert.KernelIdeal.Accumulate

end
-- ==== Proof.KernelValue.lean ====
/-
  The kernel's result. The output array has one entry, written back once, after the last grid point, from the
  output block — so it ends holding the sum of the squared errors over every row and column. The host lines after
  the call view that [1, 1] array as a scalar and divide it by the number of entries.
-/
import proofs.«149071_j28681791602728_1_alg».proof.Proof.Accumulate
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Cert.KernelIdeal.Accumulate

variable (m : (ℓ : Loc nD τ sig) → Buf (Elt Ideal) ℓ) (ρ : Dev nD → PrngReg)

/-- The [1, 1] output array holding the sum. -/
abbrev sumArr (c : Dev nD) : Buf (Elt Ideal) ((c : Thread nD τ).loc main_v0) := fun _ => totalOf m c

/-- The sum divided by the number of entries, as the host lines compute it: the program's result. -/
def mean (c : Dev nD) : Buf (Elt Ideal) ((c : Thread nD τ).loc main_v2) :=
  Host.divf (F := Ideal) (fun _ : S_.Idx => totalOf m c) (constant (F := Ideal) S_ .f32 0x4C7A0000#32)

/-- The last grid point. -/
abbrev tLast : Fin cfg0.N := ⟨199, by rw [show cfg0.N = 200 from N_0]; decide⟩

/-- The one write-back, after the last point, writes the sum. -/
theorem flushed_eq (c : Dev nD) (t : Fin cfg0.N) (hf : (cfg0.win 3).flush t = true) :
    (dats m 0 c).flushed 3 t = ((cfg0.win 3).blk t).view.read (Elt Ideal) (sumArr m c) := by
  have h1 : t.val % 200 = 199 := (flush0_3 t).mp hf
  show (cfg0.win 3).cut (grid0.coords t) ((dats m 0 c).after 3 t) = _
  rw [after0_3, out_eq m c t h1]
  funext y
  rw [View.read_apply]
  exact (cast_eq _ _).symm

/-- The output window's block index is (0, 0) at every point, and the block is never clipped. -/
theorem out_block : ∀ t : Fin cfg0.N,
    win0_3.index t (0 : Fin 2) = 0 ∧ win0_3.index t (1 : Fin 2) = 0
    ∧ win0_3.xsize (grid0.coords t) (0 : Fin 2) = 1 ∧ win0_3.xsize (grid0.coords t) (1 : Fin 2) = 1 :=
  (by decide +kernel : ∀ t : Fin grid0.N,
    win0_3.index t (0 : Fin 2) = 0 ∧ win0_3.index t (1 : Fin 2) = 0
    ∧ win0_3.xsize (grid0.coords t) (0 : Fin 2) = 1 ∧ win0_3.xsize (grid0.coords t) (1 : Fin 2) = 1)

/-- So the output array ends holding the sum: the last point's block is the whole array. -/
theorem final (c : Dev nD) : (dats m 0 c).arrAt 3 cfg0.N = sumArr m c :=
  (dats m 0 c).arrAt_eq_of_cover 3 (sumArr m c) (flushed_eq m c) fun i =>
    ⟨tLast, (flush0_3 tLast).mpr rfl, by
      show i ∈ ((View.whole main_v0).slice (win0_3.rect tLast)).set
      rw [View.set_slice_whole, Rect.mem_set_unit]
      intro a
      have h0 : (i 0 : Nat) < 1 := (i 0).isLt
      have h1 : (i 1 : Nat) < 1 := (i 1).isLt
      obtain ⟨e0, e1, e2, e3⟩ := out_block tLast
      match a with
      | ⟨0, _⟩ =>
        show win0_3.index tLast (0 : Fin 2) * win0_3.size (0 : Fin 2) ≤ (i 0 : Nat)
          ∧ (i 0 : Nat) < win0_3.index tLast (0 : Fin 2) * win0_3.size (0 : Fin 2) + win0_3.xsize (grid0.coords tLast) (0 : Fin 2)
        rw [e0, e2]; omega
      | ⟨1, _⟩ =>
        show win0_3.index tLast (1 : Fin 2) * win0_3.size (1 : Fin 2) ≤ (i 1 : Nat)
          ∧ (i 1 : Nat) < win0_3.index tLast (1 : Fin 2) * win0_3.size (1 : Fin 2) + win0_3.xsize (grid0.coords tLast) (1 : Fin 2)
        rw [e1, e3]; omega⟩

/-- The host lines after the call, from the region's exit contents: the sum viewed as a scalar, divided by the
    constant. -/
theorem tail_eq (c : Dev nD) :
    Pipeline.afterTail₀ cfgs (dats m) 0 (V0 m) [hostOps1] c main_v2 = mean m c := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v0)
      = sumArr m c := (Pipeline.withArrays_arr spec0 launch0.win.arr_inj c _ _ 3).trans (final m c)
  rw [hA]
  rfl

/-- The run, read: the result at the mean, the arguments unchanged. -/
theorem run : θ_run defs (onTc (τ := τ) (main (F := Ideal))) ⟨m, fun _ => 0, ρ⟩ fun r => ∀ c : Dev nD,
      r.2.mem ((c.tc : Thread nD τ).loc main_v2) = mean m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 rfl (by decide))).trans (tail_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c)))⟩)
    (run_main m ρ)

end Cert.KernelIdeal.KernelValue

end
-- ==== Proof.ReferenceValue.lean ====
/-
  The reference's result read as one number: the product x·wᵀ, minus y, squared, summed over every row and
  column from zero — the sum of the squared errors — and divided by the number of entries.
-/
import proofs.«149071_j28681791602728_1_alg».proof.Proof.Gen.ReferenceIdeal.Read
import proofs.«149071_j28681791602728_1_alg».proof.Proof.MeanSquare

noncomputable section

namespace Cert.ReferenceIdeal.RefValue

open Cert.ReferenceIdeal Cert.ReferenceIdeal.Gen Cert.ReferenceIdeal.Read Idealize.ShloMosaic Idealize.ShloMosaic.ValueIdx
open Cert.MeanSquare
open scoped BigOperators

variable (x : (⟨S2048x2048, .f32⟩ : BufTy).Contents (Elt Ideal)) (y : (⟨S2048x32000, .f32⟩ : BufTy).Contents (Elt Ideal))
  (w : (⟨S32000x2048, .f32⟩ : BufTy).Contents (Elt Ideal))

/-- The squared difference at (n, v) is the squared error there: the contraction pairs row n of x with row v of w. -/
theorem sq_apply (n : Fin 2048) (v : Fin 32000) : val_main_v2 (F := Ideal) x y w (ix2 n v) = sqErr x y w n v := by
  rw [val_main_v2_apply, val_main_v1_apply, val_main_v0_apply]
  have el : ∀ k : Fin 2048, lidx_main_v0 (ix2 n v) k = ix2 n k := fun k => funext fun a => Fin.ext (by
    match a with
    | ⟨0, _⟩ => rfl
    | ⟨1, _⟩ => rfl)
  have er : ∀ k : Fin 2048, ridx_main_v0 (ix2 n v) k = ix2 v k := fun k => funext fun a => Fin.ext (by
    match a with
    | ⟨0, _⟩ => rfl
    | ⟨1, _⟩ => rfl)
  simp only [el, er]
  rfl

/-- The sum stage, from zero over every index, is the sum of the squared errors. -/
theorem sum_eq : val_main_v3 (F := Ideal) x y w = fun _ => total x y w := by
  funext i
  rw [val_main_v3_apply, val_main_cst_apply]
  refine (congrArg (FloatOps.ofBits (F := Ideal) .f32 0x00000000#32 + ·) (sum_idx2 (n0 := 2048) (n1 := 32000) _)).trans ?_
  show Ideal.ofBits .f32 0x00000000#32 + _ = _
  rw [Ideal.ofBits_zero_f32, zero_add]
  unfold total
  exact Finset.sum_congr rfl fun n _ => Finset.sum_congr rfl fun v _ => sq_apply x y w n v

/-- The reference's result: the sum of the squared errors divided by the constant. -/
theorem result_eq : val_main_v4 (F := Ideal) x y w
    = Host.divf (F := Ideal) (fun _ : S_.Idx => total x y w) (constant (F := Ideal) S_ .f32 0x4C7A0000#32) := by
  unfold val_main_v4 val_main_cst_0
  rw [sum_eq]

end Cert.ReferenceIdeal.RefValue

end
-- ==== Proof.lean ====
/-
  A mean squared error, computed two ways. For x : [2048, 2048], y : [2048, 32000] and w : [32000, 2048] both
  programs return

      (∑ over rows n and columns v of ((∑ k, x(n,k)·w(v,k)) − y(n,v))²) / 65536000.

  The reference forms the whole product x·wᵀ, subtracts y, squares, sums every entry from zero and divides. The
  kernel walks a 4 × 50 grid of tiles of 512 rows by 640 columns; at each grid point it forms that tile of the
  product from a block of x and a block of w (rounded to bf16 first, which over the extended reals changes
  nothing), subtracts the tile of y, squares, sums the tile, and adds the tile's sum into one number it carries
  across the whole grid, starting from zero at the first point; after the last point that number is written out,
  and the host divides it by the same constant with the same operation.

  Over the extended reals the two agree for every input, finite or not: each squared error is the same
  expression on both sides, every (row, column) pair lies in exactly one tile, and addition of extended reals is
  commutative and associative, so the tiles' sums add up to the whole sum (Proof/TiledSum.lean,
  Proof/MeanSquare.lean). The rest reads the two programs: the value one grid point adds (Proof/TileValue.lean),
  which rows and columns a point's blocks hold (Proof/BlockReads.lean), the running total point by point by
  induction (Proof/Accumulate.lean), the output array and the host lines after the call (Proof/KernelValue.lean),
  and the reference's stages (Proof/ReferenceValue.lean). No operation of the kernel is replaced by another in
  passing to the extended reals: there the kernel is its own text, read with exact arithmetic.
-/
import proofs.«149071_j28681791602728_1_alg».proof.Defs
import proofs.«149071_j28681791602728_1_alg».proof.Proof.Gen.Kernel
import proofs.«149071_j28681791602728_1_alg».proof.Proof.Gen.Kernel.Frame
import proofs.«149071_j28681791602728_1_alg».proof.Proof.Gen.KernelIdeal
import proofs.«149071_j28681791602728_1_alg».proof.Proof.Gen.KernelIdeal.Frame
import proofs.«149071_j28681791602728_1_alg».proof.Proof.Gen.ReferenceIdeal
import proofs.«149071_j28681791602728_1_alg».proof.Proof.Gen.ReferenceIdeal.Run
import proofs.«149071_j28681791602728_1_alg».proof.Proof.Gen.ReferenceIdeal.Read
import proofs.«149071_j28681791602728_1_alg».proof.Proof.Gen.Pre_finite_inputs
import proofs.«149071_j28681791602728_1_alg».proof.Proof.KernelValue
import proofs.«149071_j28681791602728_1_alg».proof.Proof.ReferenceValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten, so there is nothing to preserve. -/
theorem preserves : Cert.preserves_Kernel_KernelIdeal := trivial

/-- Both programs end at the sum of the squared errors over every row and column, divided by the same constant:
    the kernel's tile by tile, the reference's all at once, of arguments that agree. -/
theorem algebraic : Cert.algebraic_KernelIdeal_ReferenceIdeal := by
  intro m ρ m' ρ' _ hagree
  refine ⟨fun c => Cert.KernelIdeal.KernelValue.mean m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
